-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024x1024 .f32) (main_arg13 : FVec F S1024x1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S256x1024 : Shape := ⟨2, ![256, 1024]⟩
abbrev S256x4096 : Shape := ⟨2, ![256, 4096]⟩
abbrev S1x4096 : Shape := ⟨2, ![1, 4096]⟩

abbrev nBuf : Space → Nat
  | .hbm => 24
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .bf16⟩
  | .hbm, ⟨19, _⟩ => ⟨S1024x4096, .bf16⟩
  | .hbm, ⟨20, _⟩ => ⟨S1024x4096, .bf16⟩
  | .hbm, ⟨21, _⟩ => ⟨S4096, .f32⟩
  | .hbm, ⟨22, _⟩ => ⟨S4096x1024, .f32⟩
  | .hbm, ⟨23, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  transposes_S4096x1024_S1024x4096_1_0 : S4096x1024.Transposes [1, 0] S1024x4096
  concatenates_S1024_S1024_S1024_S1024_S4096_d0 : Shape.Concatenates [S1024, S1024, S1024, S1024] S4096 0
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S4096x1024, .f32⟩
  | .hbm, ⟨16, _⟩ => ⟨S4096x1024, .f32⟩
  | .hbm, ⟨17, _⟩ => ⟨S4096, .f32⟩
  | .hbm, ⟨18, _⟩ => ⟨S1024x4096, .f32⟩
  | .hbm, ⟨19, _⟩ => ⟨S4096x4096, .f32⟩
  | .hbm, ⟨20, _⟩ => ⟨S1024x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KernelFrame.lean ====
/-
  The frame of the LSTM-cell program: @main is seven host operations (three concatenations of the per-gate weights
  and biases, two changes of float format, two transposes) followed by ONE pallas_call on a grid of 16 points.
  At every point the body loads its six input blocks whole — a 256-row block of x, of h and of c, the two whole
  transposed weight matrices and the whole bias row —, computes, and stores the two 256-row output blocks (the new
  cell state, then the new hidden state) whole. So each output buffer after the body is a function of the point's
  six input blocks alone, every input buffer is left as found, and the run of @main terminates with every argument
  array unchanged. Stated at any float instance.
-/
import proofs.«105452_j59966333387333_2_alg».proof.Proof.Gen.Kernel.Launch
import proofs.«105452_j59966333387333_2_alg».proof.Proof.Gen.Kernel.Skeleton
import proofs.«105452_j59966333387333_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the seven host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it there
    or not (the weights and the bias are fetched at the first point only: their block index never moves). -/

theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses: every load and store is of a whole buffer -/

abbrev rRows : Rect S256x1024 := Rect.unit (s := S256x1024) ![0, 0] S256x1024.size inb_S256x1024_S256x1024_0_0
abbrev rWeights : Rect S1024x4096 := Rect.unit (s := S1024x4096) ![0, 0] S1024x4096.size inb_S1024x4096_S1024x4096_0_0
abbrev rBias : Rect S4096 := Rect.unit (s := S4096) ![0] S4096.size inb_S4096_S4096_0

/-! ## What the body leaves in each output buffer -/

/-- The new cell state's block (window 7), from the six input blocks: `f · c + i · g`. -/
def outCell (x h cp : Vec F S256x1024 .f32) (wx wh : Vec F S1024x4096 .bf16) (b : Vec F S4096 .f32) : Vec F S256x1024 .f32 :=
  View.canon [⟨rRows, k0_pay2 (View.ld x rRows) (View.ld h rRows) (View.ld wx rWeights) (View.ld wh rWeights) (View.ld b rBias) (View.ld cp rRows)⟩]

/-- The new hidden state's block (window 6), from the six input blocks: `o · tanh (new cell state)`. -/
def outHidden (x h cp : Vec F S256x1024 .f32) (wx wh : Vec F S1024x4096 .bf16) (b : Vec F S4096 .f32) : Vec F S256x1024 .f32 :=
  View.canon [⟨rRows, k0_pay3 (View.ld x rRows) (View.ld h rRows) (View.ld wx rWeights) (View.ld wh rWeights) (View.ld b rBias) (View.ld cp rRows)⟩]

/-- One store of the whole buffer covers it. -/
theorem coverRows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging buffers, the inputs' at contents `x h cp wx wh b` and the outputs' at anything, runs to
    the end leaving the inputs' as they were and the outputs' at `outHidden` and `outCell` of the inputs'. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S256x1024 .f32) (harg7 : arg7.IsWhole) (arg8 : Memref sig .tc .vmem S256x1024 .f32) (harg8 : arg8.IsWhole)
    (x h cp : Vec F S256x1024 .f32) (wx wh : Vec F S1024x4096 .bf16) (b : Vec F S4096 .f32) (K : PUnit → sProp 𝕄) :
    iprop(owns (c : Thread nD τ) arg1 fullShare x ∗ owns (c : Thread nD τ) arg2 fullShare h ∗ owns (c : Thread nD τ) arg3 fullShare cp
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cp
            ∗ owns (c : Thread nD τ) arg4 fullShare wx ∗ owns (c : Thread nD τ) arg5 fullShare wh ∗ owns (c : Thread nD τ) arg6 fullShare b
            ∗ owns (c : Thread nD τ) arg7 fullShare (outHidden x h cp wx wh b) ∗ owns (c : Thread nD τ) arg8 fullShare (outCell x h cp wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverRows _)
  iexists _; isplitr
  swap; · iexact H7
  ipureintro
  exact View.read_writes_eq_canon _ _ _ (coverRows _)

/-! ## The pipeline's proof data -/

/-- On core `c`: the arrays as the region finds them; after the body at point `t` each input's buffer at its block
    and each output's at its function of the six input blocks; nothing else kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outHidden (iblk m c 0 t) (iblk m c 1 t) (iblk m c 2 t) (iblk m c 3 t) (iblk m c 4 t) (iblk m c 5 t)
    | ⟨7, _⟩ => outCell (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outHidden (iblk m c 0 t) (iblk m c 1 t) (iblk m c 2 t) (iblk m c 3 t) (iblk m c 4 t) (iblk m c 5 t) := by dsimp only [dats]
theorem after7 (c : Dev nD) (t : Fin cfg0.N) : (dats m 0 c).after 7 t = outCell (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ending at what the write-backs of
    the sixteen points leave in it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its fifteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Cell

end
-- ==== Proof.KernelIdealFrame.lean ====
/-
  The frame of the LSTM-cell program: @main is seven host operations (three concatenations of the per-gate weights
  and biases, two changes of float format, two transposes) followed by ONE pallas_call on a grid of 16 points.
  At every point the body loads its six input blocks whole — a 256-row block of x, of h and of c, the two whole
  transposed weight matrices and the whole bias row —, computes, and stores the two 256-row output blocks (the new
  cell state, then the new hidden state) whole. So each output buffer after the body is a function of the point's
  six input blocks alone, every input buffer is left as found, and the run of @main terminates with every argument
  array unchanged. Stated at any float instance.
-/
import proofs.«105452_j59966333387333_2_alg».proof.Proof.Gen.KernelIdeal.Launch
import proofs.«105452_j59966333387333_2_alg».proof.Proof.Gen.KernelIdeal.Skeleton
import proofs.«105452_j59966333387333_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the seven host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, Finset.mem_singleton]
    repeat' apply And.intro
    all_goals exact StableHlo.devRef_ne_of_ne (by decide)))

/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it there
    or not (the weights and the bias are fetched at the first point only: their block index never moves). -/

theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses: every load and store is of a whole buffer -/

abbrev rRows : Rect S256x1024 := Rect.unit (s := S256x1024) ![0, 0] S256x1024.size inb_S256x1024_S256x1024_0_0
abbrev rWeights : Rect S1024x4096 := Rect.unit (s := S1024x4096) ![0, 0] S1024x4096.size inb_S1024x4096_S1024x4096_0_0
abbrev rBias : Rect S4096 := Rect.unit (s := S4096) ![0] S4096.size inb_S4096_S4096_0

/-! ## What the body leaves in each output buffer -/

/-- The new cell state's block (window 7), from the six input blocks: `f · c + i · g`. -/
def outCell (x h cp : Vec F S256x1024 .f32) (wx wh : Vec F S1024x4096 .bf16) (b : Vec F S4096 .f32) : Vec F S256x1024 .f32 :=
  View.canon [⟨rRows, k0_pay2 (View.ld x rRows) (View.ld h rRows) (View.ld wx rWeights) (View.ld wh rWeights) (View.ld b rBias) (View.ld cp rRows)⟩]

/-- The new hidden state's block (window 6), from the six input blocks: `o · tanh (new cell state)`. -/
def outHidden (x h cp : Vec F S256x1024 .f32) (wx wh : Vec F S1024x4096 .bf16) (b : Vec F S4096 .f32) : Vec F S256x1024 .f32 :=
  View.canon [⟨rRows, k0_pay3 (View.ld x rRows) (View.ld h rRows) (View.ld wx rWeights) (View.ld wh rWeights) (View.ld b rBias) (View.ld cp rRows)⟩]

/-- One store of the whole buffer covers it. -/
theorem coverRows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging buffers, the inputs' at contents `x h cp wx wh b` and the outputs' at anything, runs to
    the end leaving the inputs' as they were and the outputs' at `outHidden` and `outCell` of the inputs'. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S256x1024 .f32) (harg7 : arg7.IsWhole) (arg8 : Memref sig .tc .vmem S256x1024 .f32) (harg8 : arg8.IsWhole)
    (x h cp : Vec F S256x1024 .f32) (wx wh : Vec F S1024x4096 .bf16) (b : Vec F S4096 .f32) (K : PUnit → sProp 𝕄) :
    iprop(owns (c : Thread nD τ) arg1 fullShare x ∗ owns (c : Thread nD τ) arg2 fullShare h ∗ owns (c : Thread nD τ) arg3 fullShare cp
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cp
            ∗ owns (c : Thread nD τ) arg4 fullShare wx ∗ owns (c : Thread nD τ) arg5 fullShare wh ∗ owns (c : Thread nD τ) arg6 fullShare b
            ∗ owns (c : Thread nD τ) arg7 fullShare (outHidden x h cp wx wh b) ∗ owns (c : Thread nD τ) arg8 fullShare (outCell x h cp wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverRows _)
  iexists _; isplitr
  swap; · iexact H7
  ipureintro
  exact View.read_writes_eq_canon _ _ _ (coverRows _)

/-! ## The pipeline's proof data -/

/-- On core `c`: the arrays as the region finds them; after the body at point `t` each input's buffer at its block
    and each output's at its function of the six input blocks; nothing else kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outHidden (iblk m c 0 t) (iblk m c 1 t) (iblk m c 2 t) (iblk m c 3 t) (iblk m c 4 t) (iblk m c 5 t)
    | ⟨7, _⟩ => outCell (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outHidden (iblk m c 0 t) (iblk m c 1 t) (iblk m c 2 t) (iblk m c 3 t) (iblk m c 4 t) (iblk m c 5 t) := by dsimp only [dats]
theorem after7 (c : Dev nD) (t : Fin cfg0.N) : (dats m 0 c).after 7 t = outCell (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ending at what the write-backs of
    the sixteen points leave in it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its fifteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Cell

end
-- ==== Proof.CellSpec.lean ====
/-
  The LSTM cell over the extended reals, index by index. For a batch row with input row `xr` and hidden row `hr`
  (1024 entries each), stacked weights `Wx`, `Wh` (4096 rows of 1024) and stacked bias `b` (4096 entries), the
  pre-activation of gate column `j` is  (Σ_k xr k · Wx j k) + (Σ_k hr k · Wh j k) + b j.  The four gates of hidden
  unit `q` sit at columns q (input), 1024 + q (forget), 2048 + q (candidate) and 3072 + q (output):
      new cell   =  σ(forget) · old cell + σ(input) · tanh(candidate),
      new hidden =  σ(output) · tanh(new cell),
  with σ the logistic function 1 / (1 + e^(-z)), all operations the exact ones on the extended reals.
-/
import Idealize.ShloMosaic.PureOps.Ideal
import Idealize.ShloMosaic.PureOps.Ideal.Laws
import Idealize.ShloMosaic.Lib.ValueIdx

noncomputable section

namespace Cert.CellSpec

open Idealize.ShloMosaic Idealize.ShloMosaic.ValueIdx

/-- Column `off + q` of the 4096 stacked gate columns. -/
def col (off : Nat) (hoff : off + 1024 ≤ 4096) (q : Fin 1024) : Fin 4096 := ⟨off + q.val, by have := q.isLt; omega⟩

/-- The pre-activation of gate column `j` of one batch row. -/
def gate (xr hr : Fin 1024 → EReal) (Wx Wh : Fin 4096 → Fin 1024 → EReal) (b : Fin 4096 → EReal) (j : Fin 4096) : EReal :=
  ((∑ k : Fin 1024, xr k * Wx j k) + ∑ k : Fin 1024, hr k * Wh j k) + b j

/-- The new cell state of hidden unit `q`, from the row's gates and the unit's old cell state `cp`. -/
def cellAt (xr hr : Fin 1024 → EReal) (Wx Wh : Fin 4096 → Fin 1024 → EReal) (b : Fin 4096 → EReal) (cp : EReal) (q : Fin 1024) : EReal :=
  Ideal.logistic (gate xr hr Wx Wh b (col 1024 (by decide) q)) * cp
    + Ideal.logistic (gate xr hr Wx Wh b (col 0 (by decide) q)) * Ideal.tanh (gate xr hr Wx Wh b (col 2048 (by decide) q))

/-- The new hidden state of hidden unit `q`. -/
def hiddenAt (xr hr : Fin 1024 → EReal) (Wx Wh : Fin 4096 → Fin 1024 → EReal) (b : Fin 4096 → EReal) (cp : EReal) (q : Fin 1024) : EReal :=
  Ideal.logistic (gate xr hr Wx Wh b (col 3072 (by decide) q)) * Ideal.tanh (cellAt xr hr Wx Wh b cp q)

/-- A [4096, 1024] array of extended reals; a [4096] one. -/
abbrev Mat : Type := (⟨2, ![4096, 1024]⟩ : Shape).Idx → EReal
abbrev Row : Type := (⟨1, ![4096]⟩ : Shape).Idx → EReal

/-- The new cell state at batch row `r`, hidden unit `q`, from the whole arrays: x, h, old cell state, the stacked
    weights (row `j` of `Wx` is gate column `j`'s weights) and the stacked bias. -/
def cellRC (x h cp Wx Wh : Mat) (b : Row) (r : Fin 4096) (q : Fin 1024) : EReal :=
  cellAt (fun k => x (ix2 r k)) (fun k => h (ix2 r k)) (fun j k => Wx (ix2 j k)) (fun j k => Wh (ix2 j k)) (fun j => b (ix1 j)) (cp (ix2 r q)) q

def hiddenRC (x h cp Wx Wh : Mat) (b : Row) (r : Fin 4096) (q : Fin 1024) : EReal :=
  hiddenAt (fun k => x (ix2 r k)) (fun k => h (ix2 r k)) (fun j k => Wx (ix2 j k)) (fun j k => Wh (ix2 j k)) (fun j => b (ix1 j)) (cp (ix2 r q)) q

/-- The two result arrays as whole-array functions of the argument arrays. -/
def cell (x h cp Wx Wh : Mat) (b : Row) : Mat := fun i => cellRC x h cp Wx Wh b (i 0) (i 1)
def hidden (x h cp Wx Wh : Mat) (b : Row) : Mat := fun i => hiddenRC x h cp Wx Wh b (i 0) (i 1)

theorem cell_ix2 (x h cp Wx Wh : Mat) (b : Row) (r : Fin 4096) (q : Fin 1024) :
    cell x h cp Wx Wh b (ix2 r q) = cellRC x h cp Wx Wh b r q := rfl
theorem hidden_ix2 (x h cp Wx Wh : Mat) (b : Row) (r : Fin 4096) (q : Fin 1024) :
    hidden x h cp Wx Wh b (ix2 r q) = hiddenRC x h cp Wx Wh b r q := rfl

/-- The float word 0x3F800000 denotes the real number one. -/
theorem one_bits : Ideal.ofBits .f32 0x3F800000#32 = (1 : EReal) := by
  simp [Ideal.ofBits, Ideal.ieee, -EReal.coe_mul]; norm_num

/-- The logistic function is its textbook expression. -/
theorem logistic_eq (z : EReal) : Ideal.logistic z = Ideal.div 1 (1 + Ideal.exp (-z)) := rfl

end Cert.CellSpec

end
-- ==== Proof.KernelBlock.lean ====
/-
  The kernel's arithmetic at one entry of a block. At a grid point the body holds a 256-row block of x and of h, the
  whole transposed stacked weights (1024 × 4096: entry (k, j) is weight k of gate column j) and the whole stacked
  bias. Entry (p, j) of its [256, 4096] array of gate pre-activations is
      (Σ_k x(p,k) · wx(k,j)) + (Σ_k h(p,k) · wh(k,j)) + b(j):
  two matrix products into a zero accumulator (a change of float format is the identity on extended reals), plus the
  bias row broadcast down the rows. The four gates of hidden unit q are the entries at columns q, 1024+q, 2048+q,
  3072+q, so the two stored blocks are, entry by entry, the specification's cell and hidden state of that row.
-/
import proofs.«105452_j59966333387333_2_alg».proof.Proof.Gen.KernelIdeal.Skeleton
import proofs.«105452_j59966333387333_2_alg».proof.Proof.CellSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Cert.CellSpec
open Idealize.ShloMosaic Idealize.ShloMosaic.ValueIdx

/-! ## A matrix product into the zero accumulator, at an entry -/

theorem lhs_row (i : S256x4096.Idx) (q : dot_S256x1024_S1024x4096_S256x4096_1_0_0_1_n_n.contr.Idx) : (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_contr (i : S256x4096.Idx) (q : dot_S256x1024_S1024x4096_S256x4096_1_0_0_1_n_n.contr.Idx) : (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_contr (i : S256x4096.Idx) (q : dot_S256x1024_S1024x4096_S256x4096_1_0_0_1_n_n.contr.Idx) : (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_col (i : S256x4096.Idx) (q : dot_S256x1024_S1024x4096_S256x4096_1_0_0_1_n_n.contr.Idx) : (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- Entry (p, j) of a [256,1024] × [1024,4096] product into zero is the sum over the shared axis. -/
theorem matmul_at (l : FVec Ideal S256x1024 .bf16) (w : FVec Ideal S1024x4096 .bf16) (p : Fin 256) (j : Fin 4096) :
    matmul dot_S256x1024_S1024x4096_S256x4096_1_0_0_1_n_n none l w (constant (F := Ideal) S256x4096 .f32 0x00000000#32) (ix2 p j) = ∑ k : Fin 1024, l (ix2 p k) * w (ix2 k j) := by
  refine (Ideal.matmul_constant_zero_apply dot_S256x1024_S1024x4096_S256x4096_1_0_0_1_n_n none l w (ix2 p j)).trans ?_
  rw [← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p j) ((contrEquiv1 dot_S256x1024_S1024x4096_S256x4096_1_0_0_1_n_n 1024 rfl rfl).symm k) = ix2 p k := funext fun a => Fin.ext (by
    match a with
    | ⟨0, _⟩ => exact lhs_row _ _
    | ⟨1, _⟩ => exact (lhs_contr _ _).trans hk)
  have er : dot_S256x1024_S1024x4096_S256x4096_1_0_0_1_n_n.rhsIdx (ix2 p j) ((contrEquiv1 dot_S256x1024_S1024x4096_S256x4096_1_0_0_1_n_n 1024 rfl rfl).symm k) = ix2 k j := funext fun a => Fin.ext (by
    match a with
    | ⟨0, _⟩ => exact (rhs_contr _ _).trans hk
    | ⟨1, _⟩ => exact rhs_col _ _)
  rw [el, er]

/-! ## The bias row broadcast down the rows, and the column slices -/

theorem bias_row_at (b : FVec Ideal S4096 .f32) (p : Fin 256) (j : Fin 4096) :
    broadcastTo S256x4096 (shapeCast S1x4096 b shapeCasts_S4096_S1x4096) broadcasts_S1x4096_S256x4096 (ix2 p j) = b (ix1 j) := by
  refine (broadcastTo_apply _ broadcasts_S1x4096_S256x4096 (ix2 p j) (ix2 (0 : Fin 1) j) (fun a => ?_)).trans ?_
  · match a with
    | ⟨0, _⟩ => show 0 = if (1 : Nat) = 1 then 0 else p.val; rw [if_pos rfl]
    | ⟨1, _⟩ => show j.val = if (4096 : Nat) = 1 then 0 else j.val; rw [if_neg (by decide)]
  · refine (shapeCast_addUnit_apply ![4096] b shapeCasts_S4096_S1x4096 (ix2 (0 : Fin 1) j)).trans (congrArg b ?_)
    funext a
    match a with
    | ⟨0, _⟩ => rfl

theorem slice_at (off : Nat) (hoff : off + 1024 ≤ 4096) (G : FVec Ideal S256x4096 .f32) (hs : S256x4096.Slices ![0, off] S256x1024)
    (p : Fin 256) (q : Fin 1024) :
    extractStridedSlice S256x1024 ![0, off] G hs (ix2 p q) = G (ix2 p (col off hoff q)) :=
  extractStridedSlice_apply ![0, off] G hs (ix2 p q) (ix2 p (col off hoff q)) (fun a => by
    match a with
    | ⟨0, _⟩ => exact (Nat.zero_add _).symm
    | ⟨1, _⟩ => rfl)

/-! ## The payloads at an entry -/

/-- The gate pre-activations at row `p` of the block and gate column `j`. -/
theorem gates_at (x h : Vec Ideal S256x1024 .f32) (wx wh : Vec Ideal S1024x4096 .bf16) (b : Vec Ideal S4096 .f32) (p : Fin 256) (j : Fin 4096) :
    k0_pay1 x h wx wh b (ix2 p j)
      = gate (fun k => x (ix2 p k)) (fun k => h (ix2 p k)) (fun j k => wx (ix2 k j)) (fun j k => wh (ix2 k j)) (fun j => b (ix1 j)) j := by
  unfold k0_pay1 gate
  show matmul dot_S256x1024_S1024x4096_S256x4096_1_0_0_1_n_n none (truncf .bf16 x bitsLt_bf16_f32) (shapeCast S1024x4096 wx shapeCasts_S1024x4096_S1024x4096) (constant (F := Ideal) S256x4096 .f32 0x00000000#32) (ix2 p j)
      + matmul dot_S256x1024_S1024x4096_S256x4096_1_0_0_1_n_n none (truncf .bf16 h bitsLt_bf16_f32) (shapeCast S1024x4096 wh shapeCasts_S1024x4096_S1024x4096) (constant (F := Ideal) S256x4096 .f32 0x00000000#32) (ix2 p j)
      + broadcastTo S256x4096 (shapeCast S1x4096 (shapeCast S4096 b shapeCasts_S4096_S4096) shapeCasts_S4096_S1x4096) broadcasts_S1x4096_S256x4096 (ix2 p j) = _
  rw [matmul_at, matmul_at, shapeCast_self, shapeCast_self, shapeCast_self, bias_row_at]
  rfl

/-- From any [256, 4096] array of pre-activations: the stored cell-state block at an entry. -/
theorem cell_of_gates (G : FVec Ideal S256x4096 .f32) (cp : Vec Ideal S256x1024 .f32) (p : Fin 256) (q : Fin 1024) :
    addf (mulf (logistic (extractStridedSlice S256x1024 ![0, 1024] G slices_S256x4096_o0_1024_S256x1024)) cp)
        (mulf (logistic (extractStridedSlice S256x1024 ![0, 0] G slices_S256x4096_o0_0_S256x1024))
          (tanh (extractStridedSlice S256x1024 ![0, 2048] G slices_S256x4096_o0_2048_S256x1024))) (ix2 p q)
      = Ideal.logistic (G (ix2 p (col 1024 (by decide) q))) * cp (ix2 p q)
        + Ideal.logistic (G (ix2 p (col 0 (by decide) q))) * Ideal.tanh (G (ix2 p (col 2048 (by decide) q))) := by
  show Ideal.logistic (extractStridedSlice S256x1024 ![0, 1024] G slices_S256x4096_o0_1024_S256x1024 (ix2 p q)) * cp (ix2 p q)
      + Ideal.logistic (extractStridedSlice S256x1024 ![0, 0] G slices_S256x4096_o0_0_S256x1024 (ix2 p q))
        * Ideal.tanh (extractStridedSlice S256x1024 ![0, 2048] G slices_S256x4096_o0_2048_S256x1024 (ix2 p q)) = _
  rw [slice_at 1024 (by decide), slice_at 0 (by decide), slice_at 2048 (by decide)]

/-- The stored cell-state block, entry (p, q): the specification's new cell state of that row and unit. -/
theorem cell_block_at (x h cp : Vec Ideal S256x1024 .f32) (wx wh : Vec Ideal S1024x4096 .bf16) (b : Vec Ideal S4096 .f32) (p : Fin 256) (q : Fin 1024) :
    k0_pay2 x h wx wh b cp (ix2 p q)
      = cellAt (fun k => x (ix2 p k)) (fun k => h (ix2 p k)) (fun j k => wx (ix2 k j)) (fun j k => wh (ix2 k j)) (fun j => b (ix1 j)) (cp (ix2 p q)) q := by
  unfold k0_pay2 cellAt
  refine (cell_of_gates (k0_pay1 x h wx wh b) cp p q).trans ?_
  rw [gates_at, gates_at, gates_at]

/-- The stored hidden-state block, entry (p, q). -/
theorem hidden_block_at (x h cp : Vec Ideal S256x1024 .f32) (wx wh : Vec Ideal S1024x4096 .bf16) (b : Vec Ideal S4096 .f32) (p : Fin 256) (q : Fin 1024) :
    k0_pay3 x h wx wh b cp (ix2 p q)
      = hiddenAt (fun k => x (ix2 p k)) (fun k => h (ix2 p k)) (fun j k => wx (ix2 k j)) (fun j k => wh (ix2 k j)) (fun j => b (ix1 j)) (cp (ix2 p q)) q := by
  unfold k0_pay3 hiddenAt
  show Ideal.logistic (extractStridedSlice S256x1024 ![0, 3072] (k0_pay1 x h wx wh b) slices_S256x4096_o0_3072_S256x1024 (ix2 p q))
      * Ideal.tanh (k0_pay2 x h wx wh b cp (ix2 p q)) = _
  rw [slice_at 3072 (by decide), gates_at, cell_block_at]

end Cert.KernelIdeal.Block

end
-- ==== Proof.KernelValue.lean ====
/-
  The kernel's two result arrays as whole-array functions of its arguments. The region finds, in the two weight
  buffers, the transposes of the stacked weights, and in the bias buffer the stacked bias; point t of the grid
  handles batch rows 256·t … 256·t + 255, reading those rows of x, h and the old cell state and writing those rows
  of the two results. Entry (p, q) of what point t writes back is therefore the specification's value at row
  256·t + p and hidden unit q; the sixteen blocks tile the 4096 rows, so each result array ends, whole, at the
  specification's function of the argument arrays.
-/
import proofs.«105452_j59966333387333_2_alg».proof.Proof.KernelIdealFrame
import proofs.«105452_j59966333387333_2_alg».proof.Proof.KernelBlock
import Idealize.ShloMosaic.Lib.Pipeline.Value
import Idealize.ShloMosaic.Lib.StableHlo.Run

set_option maxRecDepth 16384

noncomputable section

namespace Cert.KernelIdeal.CellValue

open Cert.KernelIdeal Cert.KernelIdeal.Gen Cert.KernelIdeal.Cell Cert.KernelIdeal.Block Cert.CellSpec
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The stacked weights and bias -/

/-- The four gates' input weights stacked along the rows: a [4096, 1024] array. -/
def stackX (c : Dev nD) : Mat :=
  concatenate S4096x1024 0 [⟨S1024x1024, m ((c : Thread nD τ).loc main_arg3)⟩, ⟨S1024x1024, m ((c : Thread nD τ).loc main_arg6)⟩, ⟨S1024x1024, m ((c : Thread nD τ).loc main_arg9)⟩, ⟨S1024x1024, m ((c : Thread nD τ).loc main_arg12)⟩] concatenates_S1024x1024_S1024x1024_S1024x1024_S1024x1024_S4096x1024_d0
/-- The four gates' hidden weights stacked along the rows. -/
def stackH (c : Dev nD) : Mat :=
  concatenate S4096x1024 0 [⟨S1024x1024, m ((c : Thread nD τ).loc main_arg4)⟩, ⟨S1024x1024, m ((c : Thread nD τ).loc main_arg7)⟩, ⟨S1024x1024, m ((c : Thread nD τ).loc main_arg10)⟩, ⟨S1024x1024, m ((c : Thread nD τ).loc main_arg13)⟩] concatenates_S1024x1024_S1024x1024_S1024x1024_S1024x1024_S4096x1024_d0
/-- The four gates' biases stacked. -/
def stackB (c : Dev nD) : Row :=
  concatenate S4096 0 [⟨S1024, m ((c : Thread nD τ).loc main_arg5)⟩, ⟨S1024, m ((c : Thread nD τ).loc main_arg8)⟩, ⟨S1024, m ((c : Thread nD τ).loc main_arg11)⟩, ⟨S1024, m ((c : Thread nD τ).loc main_arg14)⟩] concatenates_S1024_S1024_S1024_S1024_S4096_d0

/-! ## What the region finds in the weight and bias buffers -/

theorem found_wx (c : Dev nD) : @Eq (S1024x4096.Idx → EReal) (V m c main_v4)
    (transpose S1024x4096 [1, 0] (truncf (F := Ideal) (φ := .f32) .bf16 (stackX m c) bitsLt_bf16_f32) transposes_S4096x1024_S1024x4096_1_0) := by
  dsimp only [V, hostOps0]
  after_results
  rfl
theorem found_wh (c : Dev nD) : @Eq (S1024x4096.Idx → EReal) (V m c main_v5)
    (transpose S1024x4096 [1, 0] (truncf (F := Ideal) (φ := .f32) .bf16 (stackH m c) bitsLt_bf16_f32) transposes_S4096x1024_S1024x4096_1_0) := by
  dsimp only [V, hostOps0]
  after_results
  rfl
theorem found_b (c : Dev nD) : @Eq (S4096.Idx → EReal) (V m c main_v6) (stackB m c) := by
  dsimp only [V, hostOps0]
  after_results
  rfl

/-- Entry (k, j) of the transposed stacked input weights is entry (j, k) of the stacked ones (the change of float
    format is the identity). -/
theorem entry_wx (c : Dev nD) (k : Fin 1024) (j : Fin 4096) : V m c main_v4 (ix2 k j) = stackX m c (ix2 j k) :=
  (congrFun (found_wx m c) (ix2 k j)).trans
    (transpose_apply [1, 0] _ transposes_S4096x1024_S1024x4096_1_0 (ix2 k j) (ix2 j k) (fun b => match b with
      | ⟨0, _⟩ => rfl
      | ⟨1, _⟩ => rfl))
theorem entry_wh (c : Dev nD) (k : Fin 1024) (j : Fin 4096) : V m c main_v5 (ix2 k j) = stackH m c (ix2 j k) :=
  (congrFun (found_wh m c) (ix2 k j)).trans
    (transpose_apply [1, 0] _ transposes_S4096x1024_S1024x4096_1_0 (ix2 k j) (ix2 j k) (fun b => match b with
      | ⟨0, _⟩ => rfl
      | ⟨1, _⟩ => rfl))

/-! ## Which rows a point handles -/

theorem zero2 : (![0, 0] : Fin 2 → Nat) = fun _ => 0 := funext fun a => by fin_cases a <;> rfl
theorem zero1 : (![0] : Fin 1 → Nat) = fun _ => 0 := funext fun a => by fin_cases a; rfl

/-- The printed index maps over the grid: the row-blocked windows sit at block row `t`, the whole-array ones at 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 16 := lt_of_lt_of_eq t.isLt N_0

/-- Batch row `256 · t + p`: row `p` of the block point `t` handles. -/
def rowOf (t : Fin cfg0.N) (p : Fin 256) : Fin 4096 := ⟨t.val * 256 + p.val, by have := point_lt t; have := p.isLt; omega⟩

/-! ## The input blocks, entry by entry -/

theorem read_x (c : Dev nD) (t : Fin cfg0.N) (p : Fin 256) (k : Fin 1024) :
    iblk m c 0 t (ix2 p k) = V m c main_arg0 (ix2 (rowOf t p) k) := by
  obtain ⟨e0, e1, -⟩ := idx_facts t
  show V m c main_arg0 (((cfg0.win 0).blk t).view.emb (ix2 p k)) = V m c main_arg0 (ix2 (rowOf t p) k)
  refine congrArg (V m c main_arg0) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem read_h (c : Dev nD) (t : Fin cfg0.N) (p : Fin 256) (k : Fin 1024) :
    iblk m c 1 t (ix2 p k) = V m c main_arg1 (ix2 (rowOf t p) k) := by
  obtain ⟨-, -, e0, e1, -⟩ := idx_facts t
  show V m c main_arg1 (((cfg0.win 1).blk t).view.emb (ix2 p k)) = V m c main_arg1 (ix2 (rowOf t p) k)
  refine congrArg (V m c main_arg1) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

theorem read_c (c : Dev nD) (t : Fin cfg0.N) (p : Fin 256) (q : Fin 1024) :
    iblk m c 2 t (ix2 p q) = V m c main_arg2 (ix2 (rowOf t p) q) := by
  obtain ⟨-, -, -, -, e0, e1, -⟩ := idx_facts t
  show V m c main_arg2 (((cfg0.win 2).blk t).view.emb (ix2 p q)) = V m c main_arg2 (ix2 (rowOf t p) q)
  refine congrArg (V m c main_arg2) (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * q.val = q.val; omega

theorem read_wx (c : Dev nD) (t : Fin cfg0.N) (j : Fin 4096) (k : Fin 1024) :
    iblk m c 3 t (ix2 k j) = stackX m c (ix2 j k) := by
  obtain ⟨-, -, -, -, -, -, e0, e1, -⟩ := idx_facts t
  refine Eq.trans ?_ (entry_wx m c k j)
  show V m c main_v4 (((cfg0.win 3).blk t).view.emb (ix2 k j)) = V m c main_v4 (ix2 k j)
  refine congrArg (V m c main_v4) (funext fun a => Fin.ext ?_)
  match a with
  | ⟨0, _⟩ => show win0_3.index t (0 : Fin 2) * 1024 + 1 * k.val = k.val; omega
  | ⟨1, _⟩ => show win0_3.index t (1 : Fin 2) * 4096 + 1 * j.val = j.val; omega

theorem read_wh (c : Dev nD) (t : Fin cfg0.N) (j : Fin 4096) (k : Fin 1024) :
    iblk m c 4 t (ix2 k j) = stackH m c (ix2 j k) := by
  obtain ⟨-, -, -, -, -, -, -, -, e0, e1, -⟩ := idx_facts t
  refine Eq.trans ?_ (entry_wh m c k j)
  show V m c main_v5 (((cfg0.win 4).blk t).view.emb (ix2 k j)) = V m c main_v5 (ix2 k j)
  refine congrArg (V m c main_v5) (funext fun a => Fin.ext ?_)
  match a with
  | ⟨0, _⟩ => show win0_4.index t (0 : Fin 2) * 1024 + 1 * k.val = k.val; omega
  | ⟨1, _⟩ => show win0_4.index t (1 : Fin 2) * 4096 + 1 * j.val = j.val; omega

theorem read_b (c : Dev nD) (t : Fin cfg0.N) (j : Fin 4096) :
    iblk m c 5 t (ix1 j) = stackB m c (ix1 j) := by
  obtain ⟨-, -, -, -, -, -, -, -, -, -, e0, -⟩ := idx_facts t
  refine Eq.trans ?_ (congrFun (found_b m c) (ix1 j))
  show V m c main_v6 (((cfg0.win 5).blk t).view.emb (ix1 j)) = V m c main_v6 (ix1 j)
  refine congrArg (V m c main_v6) (funext fun a => Fin.ext ?_)
  match a with
  | ⟨0, _⟩ => show win0_5.index t (0 : Fin 1) * 4096 + 1 * j.val = j.val; omega

/-! ## A block's entry is the specification's -/

/-- Whatever blocks the body is handed: if they are rows `r` of x, h, the old cell state, and the transposed stacked
    weights and the stacked bias, then entry (p, q) of the stored cell-state block is the specification's at (r, q). -/
theorem block_is_cell (X H C SX SH : Mat) (SB : Row) (x h cp : Vec Ideal S256x1024 .f32) (wx wh : Vec Ideal S1024x4096 .bf16) (b : Vec Ideal S4096 .f32)
    (r : Fin 4096) (p : Fin 256) (q : Fin 1024)
    (hx : ∀ k, x (ix2 p k) = X (ix2 r k)) (hh : ∀ k, h (ix2 p k) = H (ix2 r k)) (hc : cp (ix2 p q) = C (ix2 r q))
    (hwx : ∀ j k, wx (ix2 k j) = SX (ix2 j k)) (hwh : ∀ j k, wh (ix2 k j) = SH (ix2 j k)) (hb : ∀ j, b (ix1 j) = SB (ix1 j)) :
    k0_pay2 x h wx wh b cp (ix2 p q) = cell X H C SX SH SB (ix2 r q) := by
  rw [cell_block_at, cell_ix2]
  unfold cellRC
  simp only [hx, hh, hc, hwx, hwh, hb]

theorem block_is_hidden (X H C SX SH : Mat) (SB : Row) (x h cp : Vec Ideal S256x1024 .f32) (wx wh : Vec Ideal S1024x4096 .bf16) (b : Vec Ideal S4096 .f32)
    (r : Fin 4096) (p : Fin 256) (q : Fin 1024)
    (hx : ∀ k, x (ix2 p k) = X (ix2 r k)) (hh : ∀ k, h (ix2 p k) = H (ix2 r k)) (hc : cp (ix2 p q) = C (ix2 r q))
    (hwx : ∀ j k, wx (ix2 k j) = SX (ix2 j k)) (hwh : ∀ j k, wh (ix2 k j) = SH (ix2 j k)) (hb : ∀ j, b (ix1 j) = SB (ix1 j)) :
    k0_pay3 x h wx wh b cp (ix2 p q) = hidden X H C SX SH SB (ix2 r q) := by
  rw [hidden_block_at, hidden_ix2]
  unfold hiddenRC
  simp only [hx, hh, hc, hwx, hwh, hb]

/-! ## What a point writes back -/

/-- Where entry (p, q) of point `t`'s block of a result array sits in the array. -/
theorem emb_hidden (t : Fin cfg0.N) (p : Fin 256) (q : Fin 1024) : ((cfg0.win 6).blk t).view.emb (ix2 p q) = ix2 (rowOf t p) q := by
  obtain ⟨-, -, -, -, -, -, -, -, -, -, -, e0, e1, -⟩ := idx_facts t
  funext a; apply Fin.ext
  match a with
  | ⟨0, _⟩ => show win0_6.index t (0 : Fin 2) * 256 + 1 * p.val = t.val * 256 + p.val; omega
  | ⟨1, _⟩ => show win0_6.index t (1 : Fin 2) * 1024 + 1 * q.val = q.val; omega
theorem emb_cell (t : Fin cfg0.N) (p : Fin 256) (q : Fin 1024) : ((cfg0.win 7).blk t).view.emb (ix2 p q) = ix2 (rowOf t p) q := by
  obtain ⟨-, -, -, -, -, -, -, -, -, -, -, -, -, e0, e1⟩ := idx_facts t
  funext a; apply Fin.ext
  match a with
  | ⟨0, _⟩ => show win0_7.index t (0 : Fin 2) * 256 + 1 * p.val = t.val * 256 + p.val; omega
  | ⟨1, _⟩ => show win0_7.index t (1 : Fin 2) * 1024 + 1 * q.val = q.val; omega

/-- What point `t` writes back to the hidden-state array is block `t` of the specification's hidden state. -/
theorem flushed_hidden (c : Dev nD) (t : Fin cfg0.N) :
    (dats m 0 c).flushed 6 t = ((cfg0.win 6).blk t).view.read (Elt Ideal) (hidden (V m c main_arg0) (V m c main_arg1) (V m c main_arg2) (stackX m c) (stackH m c) (stackB m c)) := by
  show (cfg0.win 6).cut (grid0.coords t) ((dats m 0 c).after 6 t) = _
  rw [after6]
  unfold outHidden
  rw [View.canon_unit_zero zero2]
  simp only [View.ld_unit_zero (S := S256x1024) zero2, View.ld_unit_zero (S := S1024x4096) zero2, View.ld_unit_zero (S := S4096) zero1]
  funext y
  obtain ⟨p, q, rfl⟩ : ∃ (p : Fin 256) (q : Fin 1024), y = ix2 p q := ⟨y 0, y 1, eq_ix2 y⟩
  show k0_pay3 (iblk m c 0 t) (iblk m c 1 t) (iblk m c 3 t) (iblk m c 4 t) (iblk m c 5 t) (iblk m c 2 t) (ix2 p q)
    = hidden (V m c main_arg0) (V m c main_arg1) (V m c main_arg2) (stackX m c) (stackH m c) (stackB m c) (((cfg0.win 6).blk t).view.emb (ix2 p q))
  rw [emb_hidden]
  exact block_is_hidden _ _ _ _ _ _ (iblk m c 0 t) (iblk m c 1 t) (iblk m c 2 t) (iblk m c 3 t) (iblk m c 4 t) (iblk m c 5 t) (rowOf t p) p q
    (read_x m c t p) (read_h m c t p) (read_c m c t p q) (read_wx m c t) (read_wh m c t) (read_b m c t)

/-- What point `t` writes back to the cell-state array is block `t` of the specification's cell state. -/
theorem flushed_cell (c : Dev nD) (t : Fin cfg0.N) :
    (dats m 0 c).flushed 7 t = ((cfg0.win 7).blk t).view.read (Elt Ideal) (cell (V m c main_arg0) (V m c main_arg1) (V m c main_arg2) (stackX m c) (stackH m c) (stackB m c)) := by
  show (cfg0.win 7).cut (grid0.coords t) ((dats m 0 c).after 7 t) = _
  rw [after7]
  unfold outCell
  rw [View.canon_unit_zero zero2]
  simp only [View.ld_unit_zero (S := S256x1024) zero2, View.ld_unit_zero (S := S1024x4096) zero2, View.ld_unit_zero (S := S4096) zero1]
  funext y
  obtain ⟨p, q, rfl⟩ : ∃ (p : Fin 256) (q : Fin 1024), y = ix2 p q := ⟨y 0, y 1, eq_ix2 y⟩
  show k0_pay2 (iblk m c 0 t) (iblk m c 1 t) (iblk m c 3 t) (iblk m c 4 t) (iblk m c 5 t) (iblk m c 2 t) (ix2 p q)
    = cell (V m c main_arg0) (V m c main_arg1) (V m c main_arg2) (stackX m c) (stackH m c) (stackB m c) (((cfg0.win 7).blk t).view.emb (ix2 p q))
  rw [emb_cell]
  exact block_is_cell _ _ _ _ _ _ (iblk m c 0 t) (iblk m c 1 t) (iblk m c 2 t) (iblk m c 3 t) (iblk m c 4 t) (iblk m c 5 t) (rowOf t p) p q
    (read_x m c t p) (read_h m c t p) (read_c m c t p q) (read_wx m c t) (read_wh m c t) (read_b m c t)

/-! ## The sixteen blocks tile the rows -/

theorem mem_blk_hidden (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v7_0).slice (win0_6.rect t)).set ↔ _
  rw [View.set_slice_whole, Rect.mem_set_unit]
  exact Iff.rfl
theorem mem_blk_cell (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v7_1).slice (win0_7.rect t)).set ↔ _
  rw [View.set_slice_whole, Rect.mem_set_unit]
  exact Iff.rfl

/-- Row `r` is in the block of point `r / 256`. -/
theorem cover_hidden (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  let t : Fin cfg0.N := ⟨(i 0).val / 256, by rw [show cfg0.N = 16 from N_0]; omega⟩
  have ht : t.val = (i 0).val / 256 := rfl
  obtain ⟨-, -, -, -, -, -, -, -, -, -, -, e0, e1, -⟩ := idx_facts t
  refine ⟨t, flush0_6 t, ?_⟩
  rw [mem_blk_hidden]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega
theorem cover_cell (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  let t : Fin cfg0.N := ⟨(i 0).val / 256, by rw [show cfg0.N = 16 from N_0]; omega⟩
  have ht : t.val = (i 0).val / 256 := rfl
  obtain ⟨-, -, -, -, -, -, -, -, -, -, -, -, -, e0, e1⟩ := idx_facts t
  refine ⟨t, flush0_7 t, ?_⟩
  rw [mem_blk_cell]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-! ## The arrays after the run -/

theorem final_hidden (c : Dev nD) : (dats m 0 c).arrAt 6 cfg0.N = hidden (m ((c : Thread nD τ).loc main_arg0)) (m ((c : Thread nD τ).loc main_arg1)) (m ((c : Thread nD τ).loc main_arg2)) (stackX m c) (stackH m c) (stackB m c) := by
  rw [← V_main_arg0 m c, ← V_main_arg1 m c, ← V_main_arg2 m c]
  exact (dats m 0 c).arrAt_eq_of_cover 6 (hidden (V m c main_arg0) (V m c main_arg1) (V m c main_arg2) (stackX m c) (stackH m c) (stackB m c)) (fun t _ => flushed_hidden m c t) cover_hidden
theorem final_cell (c : Dev nD) : (dats m 0 c).arrAt 7 cfg0.N = cell (m ((c : Thread nD τ).loc main_arg0)) (m ((c : Thread nD τ).loc main_arg1)) (m ((c : Thread nD τ).loc main_arg2)) (stackX m c) (stackH m c) (stackB m c) := by
  rw [← V_main_arg0 m c, ← V_main_arg1 m c, ← V_main_arg2 m c]
  exact (dats m 0 c).arrAt_eq_of_cover 7 (cell (V m c main_arg0) (V m c main_arg1) (V m c main_arg2) (stackX m c) (stackH m c) (stackB m c)) (fun t _ => flushed_cell m c t) cover_cell

/-- The run of the idealized kernel: it terminates, the hidden-state array ends at the specification's hidden state of
    the arguments, the cell-state array at its cell state, and the fifteen arguments are unchanged. -/
theorem run : θ_run defs (onTc (τ := τ) (main (F := Ideal))) ⟨m, fun _ => 0, ρ⟩ (fun r => ∀ c : Dev nD,
      r.2.mem ((c.tc : Thread nD τ).loc main_v7_0) = hidden (m ((c.tc : Thread nD τ).loc main_arg0)) (m ((c.tc : Thread nD τ).loc main_arg1)) (m ((c.tc : Thread nD τ).loc main_arg2)) (stackX m c) (stackH m c) (stackB m c)
      ∧ r.2.mem ((c.tc : Thread nD τ).loc main_v7_1) = cell (m ((c.tc : Thread nD τ).loc main_arg0)) (m ((c.tc : Thread nD τ).loc main_arg1)) (m ((c.tc : Thread nD τ).loc main_arg2)) (stackX m c) (stackH m c) (stackB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 6).trans (final_hidden m c), ((h c).1 7).trans (final_cell m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.KernelIdeal.CellValue

end
-- ==== Proof.RefIsSpec.lean ====
/-
  The reference, read index by index, is the LSTM cell of the specification: its gate pre-activations are the two
  matrix products (against the transposed stacked weights) plus the stacked bias row; its sigmoid is spelt
  1 / (1 + exp (-z)), which is the logistic function; the four gates are the four column slices. The stacked weights
  and bias (the concatenations of the per-gate arguments) are kept as whole arrays and never opened.
-/
import proofs.«105452_j59966333387333_2_alg».proof.Proof.Gen.ReferenceIdeal.Read
import proofs.«105452_j59966333387333_2_alg».proof.Proof.CellSpec

noncomputable section

namespace Cert.ReferenceIdeal.RefValue

open Cert.ReferenceIdeal Cert.ReferenceIdeal.Gen Cert.ReferenceIdeal.Read Cert.CellSpec
open Idealize.ShloMosaic Idealize.ShloMosaic.TcCoe Idealize.ShloMosaic.ValueIdx Idealize.SL.Sem

/-! ## The reference's index maps at a row and a column -/

theorem lhs_x (r j : Fin 4096) (k : Fin 1024) : lidx_main_v4 (ix2 r j) k = ix2 r k :=
  funext fun a => Fin.ext (by match a with | ⟨0, _⟩ => rfl | ⟨1, _⟩ => rfl)
theorem rhs_x (r j : Fin 4096) (k : Fin 1024) : idx_main_v3 (ridx_main_v4 (ix2 r j) k) = ix2 j k :=
  funext fun a => Fin.ext (by match a with | ⟨0, _⟩ => rfl | ⟨1, _⟩ => rfl)
theorem lhs_h (r j : Fin 4096) (k : Fin 1024) : lidx_main_v6 (ix2 r j) k = ix2 r k :=
  funext fun a => Fin.ext (by match a with | ⟨0, _⟩ => rfl | ⟨1, _⟩ => rfl)
theorem rhs_h (r j : Fin 4096) (k : Fin 1024) : idx_main_v5 (ridx_main_v6 (ix2 r j) k) = ix2 j k :=
  funext fun a => Fin.ext (by match a with | ⟨0, _⟩ => rfl | ⟨1, _⟩ => rfl)
theorem bias_at (r j : Fin 4096) : idx_main_v8 (idx_main_v9 (ix2 r j)) = ix1 j :=
  funext fun a => Fin.ext (by match a with | ⟨0, _⟩ => rfl)

theorem slice0 (r : Fin 4096) (q : Fin 1024) : idx_main_v11 (ix2 r q) = ix2 r (col 0 (by decide) q) :=
  funext fun a => Fin.ext (by
    match a with
    | ⟨0, _⟩ => rfl
    | ⟨1, _⟩ => show _ = 0 + q.val; exact (Nat.zero_add _).symm)

theorem slice1024 (r : Fin 4096) (q : Fin 1024) : idx_main_v12 (ix2 r q) = ix2 r (col 1024 (by decide) q) :=
  funext fun a => Fin.ext (by
    match a with
    | ⟨0, _⟩ => rfl
    | ⟨1, _⟩ => show _ = 1024 + q.val; rfl)

theorem slice2048 (r : Fin 4096) (q : Fin 1024) : idx_main_v13 (ix2 r q) = ix2 r (col 2048 (by decide) q) :=
  funext fun a => Fin.ext (by
    match a with
    | ⟨0, _⟩ => rfl
    | ⟨1, _⟩ => show _ = 2048 + q.val; rfl)

theorem slice3072 (r : Fin 4096) (q : Fin 1024) : idx_main_v14 (ix2 r q) = ix2 r (col 3072 (by decide) q) :=
  funext fun a => Fin.ext (by
    match a with
    | ⟨0, _⟩ => rfl
    | ⟨1, _⟩ => show _ = 3072 + q.val; rfl)

/-! ## The gate pre-activations -/

/-- The reference's [4096, 4096] array of pre-activations, at row `r` and gate column `j`. -/
theorem gates_apply (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r j : Fin 4096) :
    val_main_v10 (F := Ideal) x0 x1 x3 x4 x5 x6 x7 x8 x9 x10 x11 x12 x13 x14 (ix2 r j)
      = gate (fun k => x0 (ix2 r k)) (fun k => x1 (ix2 r k)) (fun j k => val_main_v0 (F := Ideal) x3 x6 x9 x12 (ix2 j k))
          (fun j k => val_main_v1 (F := Ideal) x4 x7 x10 x13 (ix2 j k)) (fun j => val_main_v2 (F := Ideal) x5 x8 x11 x14 (ix1 j)) j := by
  rw [val_main_v10_apply, val_main_v7_apply, val_main_v4_apply, val_main_v6_apply, val_main_v9_apply, val_main_v8_apply]
  simp only [val_main_v3_apply, val_main_v5_apply, lhs_x, rhs_x, lhs_h, rhs_h, bias_at]
  rfl

/-! ## The two results -/

/-- The reference's new cell state is the specification's. -/
theorem cell_eq (x0 x1 x2 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) :
    val_main_v36 (F := Ideal) x0 x1 x2 x3 x4 x5 x6 x7 x8 x9 x10 x11 x12 x13 x14 = cell x0 x1 x2 (val_main_v0 (F := Ideal) x3 x6 x9 x12) (val_main_v1 (F := Ideal) x4 x7 x10 x13) (val_main_v2 (F := Ideal) x5 x8 x11 x14) := by
  funext i
  obtain ⟨r, q, rfl⟩ : ∃ (r : Fin 4096) (q : Fin 1024), i = ix2 r q := ⟨i 0, i 1, eq_ix2 i⟩
  rw [cell_ix2]
  unfold cellRC cellAt
  rw [val_main_v36_apply, val_main_v34_apply, val_main_v35_apply, val_main_v26_apply, val_main_v20_apply, val_main_v27_apply,
    val_main_v25_apply, val_main_v24_apply, val_main_v19_apply, val_main_v18_apply, val_main_v23_apply, val_main_v22_apply,
    val_main_v17_apply, val_main_v16_apply, val_main_v21_apply, val_main_v15_apply, val_main_v13_apply, val_main_v12_apply,
    val_main_v11_apply, val_main_cst_apply, val_main_cst_0_apply, val_main_cst_1_apply, val_main_cst_2_apply,
    slice0, slice1024, slice2048, gates_apply, gates_apply, gates_apply]
  simp only [Ideal.ofBits_def, one_bits, logistic_eq]
  rfl

/-- The reference's new hidden state is the specification's. -/
theorem hidden_eq (x0 x1 x2 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) :
    val_main_v38 (F := Ideal) x0 x1 x2 x3 x4 x5 x6 x7 x8 x9 x10 x11 x12 x13 x14 = hidden x0 x1 x2 (val_main_v0 (F := Ideal) x3 x6 x9 x12) (val_main_v1 (F := Ideal) x4 x7 x10 x13) (val_main_v2 (F := Ideal) x5 x8 x11 x14) := by
  funext i
  obtain ⟨r, q, rfl⟩ : ∃ (r : Fin 4096) (q : Fin 1024), i = ix2 r q := ⟨i 0, i 1, eq_ix2 i⟩
  rw [hidden_ix2]
  unfold hiddenRC hiddenAt
  rw [val_main_v38_apply, val_main_v33_apply, val_main_v37_apply, val_main_v32_apply, val_main_v31_apply, val_main_v30_apply,
    val_main_v29_apply, val_main_v28_apply, val_main_v14_apply, val_main_cst_3_apply, val_main_cst_4_apply, slice3072, gates_apply,
    cell_eq, cell_ix2]
  unfold cellRC
  simp only [Ideal.ofBits_def, one_bits, logistic_eq]
  rfl

end Cert.ReferenceIdeal.RefValue

end
-- ==== Proof.lean ====
/-
  The certificate of the fused LSTM-cell kernel against its jnp reference.

  Both programs stack the four gates' weights and biases, form the gate pre-activations
      x · Wxᵀ + h · Whᵀ + b      (a [4096, 4096] array: four gates of 1024 hidden units for each of 4096 batch rows),
  and apply   c' = σ(f) · c + σ(i) · tanh(g),   h' = σ(o) · tanh(c').   The kernel does so sixteen times on blocks of
  256 batch rows, with the weights rounded to bf16 on the way into the matrix unit and its sigmoid as one
  operation; the reference does it once on whole arrays, spelling the sigmoid 1 / (1 + exp (-z)). On the extended
  reals a change of float format is the identity, a matrix product into a zero accumulator is the plain sum of
  products, and the logistic function is that quotient, so the two programs compute one function of the arguments,
  entry by entry; no algebraic law beyond these readings is needed, and none that asks the inputs to be finite.

  The frames (each program runs to the end, faults nowhere, leaves its arguments unchanged) are proved for the kernel
  at both float instances from the run of its body on whole blocks, and for the reference from its straight-line run.
  The idealization rewrote nothing, so there is nothing to preserve beyond that.
-/
import proofs.«105452_j59966333387333_2_alg».proof.Defs
import proofs.«105452_j59966333387333_2_alg».proof.Proof.Gen.Kernel
import proofs.«105452_j59966333387333_2_alg».proof.Proof.Gen.KernelIdeal
import proofs.«105452_j59966333387333_2_alg».proof.Proof.Gen.ReferenceIdeal
import proofs.«105452_j59966333387333_2_alg».proof.Proof.Gen.ReferenceIdeal.Read
import proofs.«105452_j59966333387333_2_alg».proof.Proof.Gen.Pre_finite_inputs
import proofs.«105452_j59966333387333_2_alg».proof.Proof.KernelFrame
import proofs.«105452_j59966333387333_2_alg».proof.Proof.KernelIdealFrame
import proofs.«105452_j59966333387333_2_alg».proof.Proof.KernelValue
import proofs.«105452_j59966333387333_2_alg».proof.Proof.RefIsSpec
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Cell.frame m ρ

/-- So does its idealization. -/
theorem frame_kernelIdeal : Cert.frame_KernelIdeal := fun m ρ _ => Cert.KernelIdeal.Cell.frame m ρ

/-- The reference is a straight line of host operations: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the arguments both idealized programs end with the specification's hidden state
    (returned twice) and cell state of those arguments. -/
theorem algebraic : Cert.algebraic_KernelIdeal_ReferenceIdeal := by
  intro m ρ m' ρ' _ hagree
  refine ⟨_, _, _, (θ_run Cert.KernelIdeal.defs _ _).mono (fun r h c => ⟨(h c).1, (h c).1, (h c).2.1, (h c).2.2⟩)
    (Cert.KernelIdeal.CellValue.run m ρ), ?_⟩
  refine (θ_run Cert.ReferenceIdeal.defs _ _).mono (fun r h c => ⟨(h c).1.trans ?_, (h c).2.1.trans ?_, (h c).2.2.1.trans ?_, (h c).2.2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v38_eq, Cert.ReferenceIdeal.RefValue.hidden_eq, a0, a1, a2, a3, a4, a5, a6, a7, a8, a9, a10, a11, a12, a13, a14]
    rfl
  · obtain ⟨a0, a1, a2, a3, a4, a5, a6, a7, a8, a9, a10, a11, a12, a13, a14⟩ := hagree c
    rw [Cert.ReferenceIdeal.Read.val_main_v38_eq, Cert.ReferenceIdeal.RefValue.hidden_eq, a0, a1, a2, a3, a4, a5, a6, a7, a8, a9, a10, a11, a12, a13, a14]
    rfl
  · obtain ⟨a0, a1, a2, a3, a4, a5, a6, a7, a8, a9, a10, a11, a12, a13, a14⟩ := hagree c
    rw [Cert.ReferenceIdeal.Read.val_main_v36_eq, Cert.ReferenceIdeal.RefValue.cell_eq, a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
